-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x128 : Shape := ⟨4, ![2, 16, 2048, 128]⟩
abbrev S1x1x2048x2048 : Shape := ⟨4, ![1, 1, 2048, 2048]⟩
abbrev S_ : Shape := ⟨0, ![]⟩

class Facts : Prop where
  bcast_S_S2x16x2048x128 : S_.BroadcastsInDim S2x16x2048x128 (![] : Fin 0 → Fin S2x16x2048x128.rank)
  reducesTo_S2x16x2048x128_S_d0_1_2_3 : S2x16x2048x128.ReducesTo [0, 1, 2, 3] S_
  h_S_ : 0 < S_.numel

variable [Facts]

def fn {F : FTy → Type} [FloatOps F] (main_arg0 : FVec F S2x16x2048x128 .f32) (main_arg1 : FVec F S2x16x2048x128 .f32) (main_arg2 : FVec F S2x16x2048x128 .f32) (main_arg3 : IVec S1x1x2048x2048 1) : IVec S_ 1 :=
  let main_v0 : FVec F S2x16x2048x128 .f32 := Host.absf main_arg0
  let main_cst : FVec F S_ .f32 := constant S_ .f32 0x7F800000#32
  let main_v1 : FVec F S2x16x2048x128 .f32 := broadcastInDim S2x16x2048x128 ![] bcast_S_S2x16x2048x128 main_cst
  let main_v2 : IVec S2x16x2048x128 1 := cmpf .olt main_v0 main_v1
  let main_c : IVec S_ 1 := constantI S_ 1 1#1
  let main_v3 : IVec S_ 1 := (fun x v => Host.reduce IntOp.andi x v reducesTo_S2x16x2048x128_S_d0_1_2_3 h_S_) main_v2 main_c
  let main_v4 : FVec F S2x16x2048x128 .f32 := Host.absf main_arg1
  let main_cst_0 : FVec F S_ .f32 := constant S_ .f32 0x7F800000#32
  let main_v5 : FVec F S2x16x2048x128 .f32 := broadcastInDim S2x16x2048x128 ![] bcast_S_S2x16x2048x128 main_cst_0
  let main_v6 : IVec S2x16x2048x128 1 := cmpf .olt main_v4 main_v5
  let main_c_1 : IVec S_ 1 := constantI S_ 1 1#1
  let main_v7 : IVec S_ 1 := (fun x v => Host.reduce IntOp.andi x v reducesTo_S2x16x2048x128_S_d0_1_2_3 h_S_) main_v6 main_c_1
  let main_v8 : IVec S_ 1 := andi main_v3 main_v7
  let main_v9 : FVec F S2x16x2048x128 .f32 := Host.absf main_arg2
  let main_cst_2 : FVec F S_ .f32 := constant S_ .f32 0x7F800000#32
  let main_v10 : FVec F S2x16x2048x128 .f32 := broadcastInDim S2x16x2048x128 ![] bcast_S_S2x16x2048x128 main_cst_2
  let main_v11 : IVec S2x16x2048x128 1 := cmpf .olt main_v9 main_v10
  let main_c_3 : IVec S_ 1 := constantI S_ 1 1#1
  let main_v12 : IVec S_ 1 := (fun x v => Host.reduce IntOp.andi x v reducesTo_S2x16x2048x128_S_d0_1_2_3 h_S_) main_v11 main_c_3
  let main_v13 : IVec S_ 1 := andi main_v8 main_v12
  main_v13
-- ==== Kernel.lean ====
abbrev S2x16x2048x128 : Shape := ⟨4, ![2, 16, 2048, 128]⟩
abbrev S1x1x2048x2048 : Shape := ⟨4, ![1, 1, 2048, 2048]⟩
abbrev S32x2048x128 : Shape := ⟨3, ![32, 2048, 128]⟩
abbrev S2048x2048 : Shape := ⟨2, ![2048, 2048]⟩
abbrev S32x2048x2048 : Shape := ⟨3, ![32, 2048, 2048]⟩
abbrev S1x512x128 : Shape := ⟨3, ![1, 512, 128]⟩
abbrev S1x2048x128 : Shape := ⟨3, ![1, 2048, 128]⟩
abbrev S1x512x2048 : Shape := ⟨3, ![1, 512, 2048]⟩
abbrev S2048x128 : Shape := ⟨2, ![2048, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S2x16x2048x2048 : Shape := ⟨4, ![2, 16, 2048, 2048]⟩

abbrev nBuf : Space → Nat
  | .hbm => 13
  | .vmem => 13
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S1x1x2048x2048, .i1⟩
  | .hbm, ⟨4, _⟩ => ⟨S32x2048x128, .f32⟩
  | .hbm, ⟨5, _⟩ => ⟨S32x2048x128, .f32⟩
  | .hbm, ⟨6, _⟩ => ⟨S32x2048x128, .f32⟩
  | .hbm, ⟨7, _⟩ => ⟨S2048x2048, .i1⟩
  | .hbm, ⟨8, _⟩ => ⟨S2048x2048, .i32⟩
  | .hbm, ⟨9, _⟩ => ⟨S32x2048x2048, .f32⟩
  | .hbm, ⟨10, _⟩ => ⟨S32x2048x128, .f32⟩
  | .hbm, ⟨11, _⟩ => ⟨S2x16x2048x128, .f32⟩
  | .hbm, ⟨12, _⟩ => ⟨S2x16x2048x2048, .f32⟩
  | .local _ .vmem, ⟨0, _⟩ => ⟨S2048x2048, .i32⟩
  | .local _ .vmem, ⟨1, _⟩ => ⟨S1x512x128, .f32⟩
  | .local _ .vmem, ⟨2, _⟩ => ⟨S1x512x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x512x2048, .f32⟩
  | .local _ .vmem, ⟨8, _⟩ => ⟨S1x512x2048, .f32⟩
  | .local _ .vmem, ⟨9, _⟩ => ⟨S1x512x128, .f32⟩
  | .local _ .vmem, ⟨10, _⟩ => ⟨S1x512x128, .f32⟩
  | .local _ .vmem, ⟨11, _⟩ => ⟨S2048x128, .bf16⟩
  | .local _ .vmem, ⟨12, _⟩ => ⟨S2048x128, .bf16⟩
  | _, _ => ⟨S2x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2048x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2x16x2048x128_S32x2048x128 : S2x16x2048x128.ShapeCasts S32x2048x128
  shapeCasts_S1x1x2048x2048_S2048x2048 : S1x1x2048x2048.ShapeCasts S2048x2048
  natLt_1_32 : 1 < 32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  h_S512x2048 : 0 < S512x2048.numel
  shapeCasts_S512x2048_S512x2048 : S512x2048.ShapeCasts S512x2048
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x128_S1x512x128 : S512x128.ShapeCasts S1x512x128
  shapeCasts_S32x2048x128_S2x16x2048x128 : S32x2048x128.ShapeCasts S2x16x2048x128
  shapeCasts_S32x2048x2048_S2x16x2048x2048 : S32x2048x2048.ShapeCasts S2x16x2048x2048
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x2048.size a ≤ S2048x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S2048x2048.size a
  hwx0_0 : ∀ i : grid0.Coords, EltTy.bits .i32 = 32 ∨ (Rect.block (s := S2048x2048) S2048x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S32x2048x128.size a
  hwx0_1 : ∀ i : grid0.Coords, EltTy.bits .f32 = 32 ∨ (Rect.block (s := S32x2048x128) S1x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S32x2048x128.size a
  hwx0_2 : ∀ i : grid0.Coords, EltTy.bits .f32 = 32 ∨ (Rect.block (s := S32x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S32x2048x128.size a
  hwx0_3 : ∀ i : grid0.Coords, EltTy.bits .f32 = 32 ∨ (Rect.block (s := S32x2048x128) S1x2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S32x2048x2048.size a
  hwx0_4 : ∀ i : grid0.Coords, EltTy.bits .f32 = 32 ∨ (Rect.block (s := S32x2048x2048) S1x512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x128.size a ≤ S32x2048x128.size a
  hwx0_5 : ∀ i : grid0.Coords, EltTy.bits .f32 = 32 ∨ (Rect.block (s := S32x2048x128) S1x512x128.size (cc0_transform_5 i) (hinb0_5 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_v4) S2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1x512x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1x512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x128 : Shape := ⟨4, ![2, 16, 2048, 128]⟩
abbrev S1x1x2048x2048 : Shape := ⟨4, ![1, 1, 2048, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S1x1x2048x2048, .i1⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S_, .f32⟩
  | .hbm, ⟨9, _⟩ => ⟨S_, .f32⟩
  | .hbm, ⟨10, _⟩ => ⟨S2x16x2048x2048, .i1⟩
  | .hbm, ⟨11, _⟩ => ⟨S2x16x2048x2048, .f32⟩
  | .hbm, ⟨12, _⟩ => ⟨S2x16x2048x2048, .f32⟩
  | .hbm, ⟨13, _⟩ => ⟨S_, .f32⟩
  | .hbm, ⟨14, _⟩ => ⟨S2x16x2048, .f32⟩
  | .hbm, ⟨15, _⟩ => ⟨S_, .f32⟩
  | .hbm, ⟨16, _⟩ => ⟨S2x16x2048, .f32⟩
  | .hbm, ⟨17, _⟩ => ⟨S2x16x2048, .f32⟩
  | .hbm, ⟨18, _⟩ => ⟨S2x16x2048x1, .f32⟩
  | .hbm, ⟨19, _⟩ => ⟨S2x16x2048x2048, .f32⟩
  | .hbm, ⟨20, _⟩ => ⟨S2x16x2048x2048, .f32⟩
  | .hbm, ⟨21, _⟩ => ⟨S2x16x2048x2048, .f32⟩
  | .hbm, ⟨22, _⟩ => ⟨S_, .f32⟩
  | .hbm, ⟨23, _⟩ => ⟨S2x16x2048, .f32⟩
  | .hbm, ⟨24, _⟩ => ⟨S2x16x2048x1, .f32⟩
  | .hbm, ⟨25, _⟩ => ⟨S2x16x2048x2048, .f32⟩
  | .hbm, ⟨26, _⟩ => ⟨S2x16x2048x2048, .f32⟩
  | .hbm, ⟨27, _⟩ => ⟨S2x16x2048x128, .f32⟩
  | _, _ => ⟨S2x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.Spec.lean ====
/-
  Masked scaled-dot-product attention over the extended reals, index by index.

  For queries q, keys k, values v of shape [2, 16, 2048, 128] and a mask of shape [1, 1, 2048, 2048]:
    score(b,h,r,c)  = fill                      where the mask is set at (r,c),
                    = (∑_d q(b,h,r,d)·k(b,h,c,d)) · scale   elsewhere;
    weight(b,h,r,c) = exp(score(b,h,r,c) − max_c' score) / ∑_c' exp(score(b,h,r,c') − max_c'' score);
    context(b,h,r,d) = ∑_c weight(b,h,r,c) · v(b,h,c,d).
  The maximum is the fold of max from −∞ over the row; scale, fill and −∞ are the values of three f32 words.

  One law is proved here, the only one that needs finite entries: scaling every query entry before the
  contraction is scaling the contraction, ∑_d (q_d · s) · k_d = (∑_d q_d · k_d) · s for real q_d, k_d, s.
-/
import Idealize.ShloMosaic.PureOps.Ideal
import Idealize.ShloMosaic.PureOps.Ideal.Laws
import Idealize.ShloMosaic.Lib.ValueIdx

noncomputable section

namespace Attn.Spec

open Idealize.ShloMosaic Idealize.ShloMosaic.ValueIdx

/-- The softmax scale: the f32 nearest 1/√128. -/
abbrev scaleC : EReal := Ideal.ofBits .f32 0x3DB504F3#32
/-- The value written where the mask is set: −1e9 as an f32. -/
abbrev fillC : EReal := Ideal.ofBits .f32 0xCE6E6B28#32
/-- The word of −∞, from which a row's maximum is folded. -/
abbrev negInfC : EReal := Ideal.ofBits .f32 0xFF800000#32

/-- The maximum of a row of scores: the fold of max from −∞. -/
def rowMax {n : ℕ} (s : Fin n → EReal) : EReal := (Finset.univ : Finset (Fin n)).fold max negInfC s

/-- A row's shifted exponentials. -/
def rowExp {n : ℕ} (s : Fin n → EReal) (j : Fin n) : EReal := Ideal.exp (s j - rowMax s)

/-- A row's softmax weights: each shifted exponential over their sum. -/
def rowWeight {n : ℕ} (s : Fin n → EReal) (j : Fin n) : EReal := Ideal.div (rowExp s j) (∑ k, rowExp s k)

/-- The masked, scaled scores of query row (b, h, r) against every key row. -/
def scores (q k : (⟨4, ![2, 16, 2048, 128]⟩ : Shape).Idx → EReal) (msk : (⟨4, ![1, 1, 2048, 2048]⟩ : Shape).Idx → BitVec 1)
    (b : Fin 2) (h : Fin 16) (r : Fin 2048) : Fin 2048 → EReal :=
  fun c => Scalar.select (msk (ix4 (0 : Fin 1) (0 : Fin 1) r c)) fillC
    ((∑ d : Fin 128, q (ix4 b h r d) * k (ix4 b h c d)) * scaleC)

/-- The attention weights. -/
def attn (q k : (⟨4, ![2, 16, 2048, 128]⟩ : Shape).Idx → EReal) (msk : (⟨4, ![1, 1, 2048, 2048]⟩ : Shape).Idx → BitVec 1) :
    (⟨4, ![2, 16, 2048, 2048]⟩ : Shape).Idx → EReal :=
  fun i => rowWeight (scores q k msk (i 0) (i 1) (i 2)) (i 3)

/-- The context: the weights applied to the values. -/
def context (q k v : (⟨4, ![2, 16, 2048, 128]⟩ : Shape).Idx → EReal) (msk : (⟨4, ![1, 1, 2048, 2048]⟩ : Shape).Idx → BitVec 1) :
    (⟨4, ![2, 16, 2048, 128]⟩ : Shape).Idx → EReal :=
  fun i => ∑ c : Fin 2048, rowWeight (scores q k msk (i 0) (i 1) (i 2)) c * v (ix4 (i 0) (i 1) c (i 3))

/-- A finite sum of reals, each read as an extended real, is the sum read as one. -/
theorem coe_sum {ι : Type} (s : Finset ι) (f : ι → ℝ) : ∑ d ∈ s, ((f d : ℝ) : EReal) = ((∑ d ∈ s, f d : ℝ) : EReal) := by
  classical
  refine Finset.induction_on s (by simp) fun a s ha ih => ?_
  rw [Finset.sum_insert ha, Finset.sum_insert ha, ih, EReal.coe_add]

/-- Scaling each query entry before the contraction is scaling the contraction, for real entries and a real scale. -/
theorem scale_contraction {n : ℕ} (q k : Fin n → EReal) (s : EReal)
    (hq : ∀ d, ∃ r : ℝ, q d = r) (hk : ∀ d, ∃ r : ℝ, k d = r) (hs : ∃ r : ℝ, s = r) :
    ∑ d, (q d * s) * k d = (∑ d, q d * k d) * s := by
  choose qr hqr using hq
  choose kr hkr using hk
  obtain ⟨sr, rfl⟩ := hs
  have e1 : ∀ d, (q d * (sr : EReal)) * k d = ((qr d * sr * kr d : ℝ) : EReal) := fun d => by
    rw [hqr d, hkr d, ← EReal.coe_mul, ← EReal.coe_mul]
  have e2 : ∀ d, q d * k d = ((qr d * kr d : ℝ) : EReal) := fun d => by
    rw [hqr d, hkr d, ← EReal.coe_mul]
  rw [Finset.sum_congr rfl fun d _ => e1 d, Finset.sum_congr rfl fun d _ => e2 d, coe_sum, coe_sum, ← EReal.coe_mul]
  congr 1
  rw [Finset.sum_mul]
  exact Finset.sum_congr rfl fun d _ => by ring

/-- The scale word denotes a real number. -/
theorem scaleC_real : ∃ r : ℝ, scaleC = r := by
  unfold scaleC Ideal.ofBits Ideal.ieee
  dsimp only
  rw [if_neg (by decide), if_neg (by decide)]
  exact ⟨_, rfl⟩

/-- The word of −∞ denotes the bottom of the extended reals. -/
theorem negInfC_eq : negInfC = ⊥ := by
  simp [negInfC, Ideal.ofBits, Ideal.ieee]

end Attn.Spec

end
-- ==== Proof.RefValue.lean ====
/-
  The reference's two results are the specification's attention weights and context.

  Read one operation at a time: the masked scaled score at an index; the row maximum (the host's
  maximum-reduce is the fold of max from −∞, and max with −∞ changes nothing); the shifted
  exponentials; their row sum from zero; the quotient; and the weights contracted with the values.
-/
import proofs.«118692_j82523501625734_2_alg».proof.Proof.Gen.ReferenceIdeal.Read
import proofs.«118692_j82523501625734_2_alg».proof.Proof.Spec
import Idealize.ShloMosaic.PureOps.Reduce

noncomputable section

namespace Attn.Ref

open Cert.ReferenceIdeal Cert.ReferenceIdeal.Gen Cert.ReferenceIdeal.Read Idealize.ShloMosaic Idealize.ShloMosaic.ValueIdx Attn.Spec

/-- The contents of a [2, 16, 2048, 128] f32 argument at the ideal instance. -/
abbrev Arg : Type := (⟨S2x16x2048x128, .f32⟩ : BufTy).Contents (Elt Ideal)
/-- The contents of the mask argument. -/
abbrev Msk : Type := (⟨S1x1x2048x2048, .i1⟩ : BufTy).Contents (Elt Ideal)

/-- The masked scaled score the reference computes at (b, h, r, c). -/
theorem score_at (x0 x1 : Arg) (x3 : Msk) (i : S2x16x2048x2048.Idx) :
    val_main_v3 (F := Ideal) x0 x1 x3 i = scores x0 x1 x3 (i 0) (i 1) (i 2) (i 3) := by
  have e3 : idx_main_call0_v1 i = ix4 (0 : Fin 1) (0 : Fin 1) (i 2) (i 3) := funext fun a => Fin.ext (by
    match a with | ⟨0, _⟩ => rfl | ⟨1, _⟩ => rfl | ⟨2, _⟩ => rfl | ⟨3, _⟩ => rfl)
  have el : ∀ d, lidx_main_v0 i d = ix4 (i 0) (i 1) (i 2) d := fun d => funext fun a => Fin.ext (by
    match a with | ⟨0, _⟩ => rfl | ⟨1, _⟩ => rfl | ⟨2, _⟩ => rfl | ⟨3, _⟩ => rfl)
  have er : ∀ d, ridx_main_v0 i d = ix4 (i 0) (i 1) (i 3) d := fun d => funext fun a => Fin.ext (by
    match a with | ⟨0, _⟩ => rfl | ⟨1, _⟩ => rfl | ⟨2, _⟩ => rfl | ⟨3, _⟩ => rfl)
  rw [val_main_v3_apply, val_main_call0_v1_apply, val_main_call0_v2_apply, val_main_call0_v0_apply, val_main_cst_0_apply,
    val_main_v2_apply, val_main_v0_apply, val_main_v1_apply, val_main_cst_apply, e3]
  simp only [el, er]
  rfl

/-- The reduced index (b, h, r) with column k put back is (b, h, r, k). -/
theorem lift_col (hr : S2x16x2048x2048.Reduces [3] S2x16x2048) (j : S2x16x2048.Idx) (k : Fin (S2x16x2048x2048.size 3)) :
    hr.lift j k = ix4 (j 0) (j 1) (j 2) (⟨k.val, k.isLt⟩ : Fin 2048) := funext fun a => Fin.ext (by
  match a with | ⟨0, _⟩ => rfl | ⟨1, _⟩ => rfl | ⟨2, _⟩ => rfl | ⟨3, _⟩ => rfl)

/-- The row maximum the reference subtracts at (b, h, r). -/
theorem rowmax_at (x0 x1 : Arg) (x3 : Msk) (j : S2x16x2048.Idx) :
    val_main_v6 (F := Ideal) x0 x1 x3 j = rowMax (scores x0 x1 x3 (j 0) (j 1) (j 2)) := by
  have hr : S2x16x2048x2048.Reduces [3] S2x16x2048 := by decide
  rw [val_main_v6_apply, val_main_v5_apply, val_main_cst_2_apply]
  unfold val_main_v4
  rw [Host.reduce_eq_fold_single FloatOps.maximumf _ _ reducesTo_S2x16x2048x2048_S2x16x2048_d3 hr h_S_ j]
  have hf : (val_main_v3 (F := Ideal) x0 x1 x3 ∘ hr.lift j) = scores x0 x1 x3 (j 0) (j 1) (j 2) := funext fun k => by
    show val_main_v3 (F := Ideal) x0 x1 x3 (hr.lift j k) = _
    rw [lift_col hr j k]
    exact score_at x0 x1 x3 (ix4 (j 0) (j 1) (j 2) (⟨k.val, k.isLt⟩ : Fin 2048))
  rw [hf]
  show max negInfC (Finset.fold max negInfC _ _) = _
  rw [negInfC_eq, max_bot_left]
  rfl

/-- The shifted exponential the reference computes at (b, h, r, c). -/
theorem exp_at (x0 x1 : Arg) (x3 : Msk) (i : S2x16x2048x2048.Idx) :
    val_main_v10 (F := Ideal) x0 x1 x3 i = rowExp (scores x0 x1 x3 (i 0) (i 1) (i 2)) (i 3) := by
  rw [val_main_v10_apply, val_main_v9_apply, val_main_v8_apply, val_main_v7_apply, rowmax_at, score_at]
  rfl

/-- The row sum of the shifted exponentials at (b, h, r). -/
theorem sum_at (x0 x1 : Arg) (x3 : Msk) (j : S2x16x2048.Idx) :
    val_main_v11 (F := Ideal) x0 x1 x3 j = ∑ k : Fin 2048, rowExp (scores x0 x1 x3 (j 0) (j 1) (j 2)) k := by
  rw [val_main_v11_apply, val_main_cst_3_apply]
  simp only [Ideal.ofBits_def, Ideal.ofBits_zero_f32, zero_add]
  exact Finset.sum_congr rfl fun k _ => (exp_at x0 x1 x3 _).trans rfl

/-- The reference's attention weights are the specification's. -/
theorem weights_eq (x0 x1 : Arg) (x3 : Msk) : val_main_v14 (F := Ideal) x0 x1 x3 = attn x0 x1 x3 := by
  funext i
  rw [val_main_v14_apply, val_main_v13_apply, val_main_v12_apply, sum_at, exp_at]
  rfl

/-- The reference's context is the specification's. -/
theorem context_eq (x0 x1 x2 : Arg) (x3 : Msk) : val_main_v15 (F := Ideal) x0 x1 x2 x3 = context x0 x1 x2 x3 := by
  funext i
  rw [val_main_v15_apply, weights_eq]
  unfold context attn
  refine Finset.sum_congr rfl fun k _ => ?_
  have er : ridx_main_v15 i k = ix4 (i 0) (i 1) k (i 3) := funext fun a => Fin.ext (by
    match a with | ⟨0, _⟩ => rfl | ⟨1, _⟩ => rfl | ⟨2, _⟩ => rfl | ⟨3, _⟩ => rfl)
  rw [er]
  rfl

end Attn.Ref

end
-- ==== Proof.LibMosaicRows.lean ====
/-
  Four readings of a kernel's row-wise vector operations at one entry, at the ideal instance, for any sizes.

  * col_repeated: a one-column matrix [a, 1] broadcast to [a, b] reads, at (p, c), the column's entry p — a row's
    maximum or sum, or a per-row scale, spread over the row.
  * rowSum_at: the sum reduction of a matrix [a, b] over its columns, from the zero word, reads at row p the sum over
    the b columns of the row's entries.
  * rowMax_at: the maximum reduction over the columns, from the word of -∞, reads at row p the fold of max from that
    word's value over the row's entries.
  * exp_at: the exponential of a vector reads, at an index, the exponential of the entry.
-/
import Idealize.ShloMosaic.PureOps.Ideal.Laws
import Idealize.ShloMosaic.Lib.ValueIdx
import Idealize.ShloMosaic.Lib.Pipeline.Value

noncomputable section

namespace Cert.Lib.MosaicRows

open Idealize.ShloMosaic Idealize.ShloMosaic.ValueIdx

/-- A one-column matrix broadcast across b columns reads, at (p, c), the column's entry p. -/
theorem col_repeated {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of row p with column k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  match c with
  | ⟨0, _⟩ => rfl
  | ⟨1, _⟩ => rfl

/-- The sum over the columns, from the zero word, at row p: the sum of the row's entries. -/
theorem rowSum_at {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

/-- The maximum over the columns, from the word of -∞, at row p: the fold of max from -∞ over the row's entries. -/
theorem rowMax_at {a b : ℕ} (src : FVec Ideal ⟨2, ![a, b]⟩ .f32)
    (h : (⟨2, ![a, b]⟩ : Shape).Reduces [1] (⟨1, ![a]⟩ : Shape)) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  have hf : (src ∘ h.lift (ix1 p)) = fun k : Fin b => src (ix2 p k) := funext fun k => congrArg src (lift_row h p k)
  exact congrArg (fun f => Finset.fold max (Ideal.ofBits .f32 0xFF800000#32) f (Finset.univ : Finset (Fin b))) hf

/-- The exponential of a vector at an index is the exponential of the entry. -/
theorem exp_at {s : Shape} (v : FVec Ideal s .f32) (i : s.Idx) : exp v i = Ideal.exp (v i) := rfl

end Cert.Lib.MosaicRows

end
-- ==== Proof.LibMatmulRowsByRows.lean ====
/-
  A product of two matrices that share their SECOND axis, read at an entry.

  For `lhs : [n, K]` and `rhs : [d, K]`, contracted over the second axis of both (the product of `lhs`
  with the transpose of `rhs`), accumulated into the all-zero matrix: at the ideal instance entry `(r, c)`
  of the result is the sum over `k` of `lhs[r, k] · rhs[c, k]`.  Any sizes, any operand formats, any
  precision.  The four hypotheses name the coordinates of the two operand indices at an output index and
  a contraction index; for a printed dimension record two of them come from unfolding the index maps and
  two from the library's facts about a single contracted axis.
-/
import Idealize.ShloMosaic.PureOps.Ideal.Laws
import Idealize.ShloMosaic.Lib.ValueIdx

noncomputable section

namespace Cert.Lib.RowsByRows

open Idealize.ShloMosaic Idealize.ShloMosaic.ValueIdx

/-- `lhs · rhsᵀ` into the zero accumulator at entry `(r, c)`: the sum over the shared axis of the
    products of row `r` of `lhs` with row `c` of `rhs`. -/
theorem matmul_zero_at {n K d : Nat} {φ₁ φ₂ : FTy}
    (D : DotDims ⟨2, ![n, K]⟩ ⟨2, ![d, K]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (j 1).val)
    (hr1 : ∀ j q, (D.rhsIdx j q 1).val = (q ⟨0, by omega⟩).val)
    (prec : Option ContractPrecision)
    (lhs : FVec Ideal ⟨2, ![n, K]⟩ φ₁) (rhs : FVec Ideal ⟨2, ![d, K]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 c k := funext fun a => Fin.ext (by
    match a with
    | ⟨0, _⟩ => exact hr0 _ _
    | ⟨1, _⟩ => exact (hr1 _ _).trans hk)
  rw [el, er]

end Cert.Lib.RowsByRows

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.LibColumns.lean ====
/-
  Two layout readings used by every stage: a vector recast as a one-column matrix read at `(p, 0)`, and a scalar
  broadcast to any shape read at any index.
-/
import Idealize.ShloMosaic.Lib.ValueIdx
import Idealize.ShloMosaic.Lib.Pipeline.Value

noncomputable section

namespace Cert.Sage.Layout

open Idealize.ShloMosaic Idealize.ShloMosaic.ValueIdx

/-- An `[n]` array cast to `[n, 1]` reads, at `(p, 0)`, the operand at `p`. -/
theorem shapeCast_n_n1_apply {α : Type} {n : ℕ} (x : (⟨1, ![n]⟩ : Shape).Idx → α) (h : (⟨1, ![n]⟩ : Shape).ShapeCasts ⟨2, ![n, 1]⟩)
    (p : Fin n) : shapeCast ⟨2, ![n, 1]⟩ x h (ix2 p (0 : Fin 1)) = x (ix1 p) :=
  shapeCast_apply x h _ _ (by
    rw [Shape.rowMajor_val_one, Shape.rowMajor_val_two]
    show p.val = p.val * 1 + 0
    omega)

/-- A scalar broadcast to a shape reads, at every index, the scalar. -/
theorem broadcastInDim_scalar_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

end Cert.Sage.Layout

end
-- ==== Proof.KernelRows.lean ====
/-
  What the kernel body computes from its loads, entry by entry, at the ideal instance.

  From a [512, 2048] block of mask words w, a [1, 512, 128] block of queries x and a [2048, 128] array of keys y:
  the score of row r against key row c is the fill where w(r,c) ≠ 0 and ∑_d (x(0,r,d)·scale)·y(c,d) elsewhere
  (the scale multiplies each query entry before the contraction; changes of float format are the identity);
  the stored weights are the row softmax of the scores, and the stored context is the weights contracted
  with a [2048, 128] array of values.
-/
import proofs.«118692_j82523501625734_2_alg».proof.Proof.Gen.KernelIdeal.Skeleton
import proofs.«118692_j82523501625734_2_alg».proof.Proof.Spec
import proofs.«118692_j82523501625734_2_alg».proof.Proof.LibMosaicRows
import proofs.«118692_j82523501625734_2_alg».proof.Proof.LibMatmulRowsByRows
import proofs.«118692_j82523501625734_2_alg».proof.Proof.LibSplitContraction
import proofs.«118692_j82523501625734_2_alg».proof.Proof.LibColumns
import Idealize.ShloMosaic.Lib.Pipeline.Value
import Idealize.ShloMosaic.Lib.ValueLayout

noncomputable section

namespace Attn.Kernel

open Cert.KernelIdeal Cert.KernelIdeal.Gen Idealize.ShloMosaic Idealize.ShloMosaic.ValueIdx Attn.Spec

/-- The kernel's score row r: the mask word decides between the fill and the contraction of the scaled query row. -/
def kscores (w : Vec Ideal S512x2048 .i32) (x : Vec Ideal S1x512x128 .f32) (y : Vec Ideal S2048x128 .bf16) (r : Fin 512) :
    Fin 2048 → EReal :=
  fun c => Scalar.select (IntOp.cmpi .ne (w (ix2 r c)) 0#32) fillC
    (∑ d : Fin 128, (x (ix3 (0 : Fin 1) r d) * scaleC) * y (ix2 c d))

/-- A [1, a, b] block recast as [a, b] reads, at (r, d), the block at (0, r, d). -/
theorem drop_unit_at {α : Type} {a b : ℕ} (x : (⟨3, ![1, a, b]⟩ : Shape).Idx → α)
    (h : (⟨3, ![1, a, b]⟩ : Shape).ShapeCasts ⟨2, ![a, b]⟩) (r : Fin a) (d : Fin b) :
    shapeCast ⟨2, ![a, b]⟩ x h (ix2 r d) = x (ix3 (0 : Fin 1) r d) :=
  shapeCast_apply x h _ _ (by
    rw [Shape.rowMajor_val_two, Shape.rowMajor_val_three]
    show (0 * a + r.val) * b + d.val = r.val * b + d.val
    rw [Nat.zero_mul, Nat.zero_add])

/-- An [a, b] array recast as [1, a, b] reads, at (0, r, d), the array at (r, d). -/
theorem add_unit_at {α : Type} {a b : ℕ} (x : (⟨2, ![a, b]⟩ : Shape).Idx → α)
    (h : (⟨2, ![a, b]⟩ : Shape).ShapeCasts ⟨3, ![1, a, b]⟩) (r : Fin a) (d : Fin b) :
    shapeCast ⟨3, ![1, a, b]⟩ x h (ix3 (0 : Fin 1) r d) = x (ix2 r d) :=
  shapeCast_apply x h _ _ (by
    rw [Shape.rowMajor_val_two, Shape.rowMajor_val_three]
    show r.val * b + d.val = (0 * a + r.val) * b + d.val
    rw [Nat.zero_mul, Nat.zero_add])

/-! ## The two contractions -/

local notation "DQK" => dot_S512x128_S2048x128_S512x2048_1_1_0_0_n_n
local notation "DAV" => dot_S512x2048_S2048x128_S512x128_1_0_0_1_n_n

/-- Queries [512, 128] against keys [2048, 128] over the shared second axis, into zero, at (r, c). -/
theorem qk_at {φ₁ φ₂ : FTy} (l : FVec Ideal S512x128 φ₁) (y : FVec Ideal S2048x128 φ₂) (r : Fin 512) (c : Fin 2048) :
    FloatOps.matmul dot_S512x128_S2048x128_S512x2048_1_1_0_0_n_n none l y (constant (F := Ideal) S512x2048 .f32 0x00000000#32) (ix2 r c)
      = ∑ d : Fin 128, l (ix2 r d) * y (ix2 c d) :=
  Cert.Lib.RowsByRows.matmul_zero_at dot_S512x128_S2048x128_S512x2048_1_1_0_0_n_n rfl rfl
    (fun j q => by
      unfold DotDims.lhsIdx
      rw [dif_neg (show ¬(0 : Fin S512x128.rank) ∈ dot_S512x128_S2048x128_S512x2048_1_1_0_0_n_n.lhsBatch by decide),
        dif_pos (show (0 : Fin S512x128.rank) ∈ dot_S512x128_S2048x128_S512x2048_1_1_0_0_n_n.lhsNonContracting by decide)]
      rfl)
    (fun j q => dot_S512x128_S2048x128_S512x2048_1_1_0_0_n_n.lhsIdx_val_of_single rfl j q)
    (fun j q => by
      unfold DotDims.rhsIdx
      rw [dif_neg (show ¬(0 : Fin S2048x128.rank) ∈ dot_S512x128_S2048x128_S512x2048_1_1_0_0_n_n.rhsBatch by decide),
        dif_pos (show (0 : Fin S2048x128.rank) ∈ dot_S512x128_S2048x128_S512x2048_1_1_0_0_n_n.rhsNonContracting by decide)]
      rfl)
    (fun j q => dot_S512x128_S2048x128_S512x2048_1_1_0_0_n_n.rhsIdx_val_of_single rfl j q)
    none l y r c

/-- Weights [512, 2048] against values [2048, 128], into zero, at (r, d). -/
theorem av_at {φ₁ φ₂ : FTy} (l : FVec Ideal S512x2048 φ₁) (z : FVec Ideal S2048x128 φ₂) (r : Fin 512) (d : Fin 128) :
    FloatOps.matmul dot_S512x2048_S2048x128_S512x128_1_0_0_1_n_n none l z (constant (F := Ideal) S512x128 .f32 0x00000000#32) (ix2 r d)
      = ∑ c : Fin 2048, l (ix2 r c) * z (ix2 c d) :=
  Cert.Lib.SplitContraction.matmul_zero_at dot_S512x2048_S2048x128_S512x128_1_0_0_1_n_n rfl rfl
    (fun j q => by
      unfold DotDims.lhsIdx
      rw [dif_neg (show ¬(0 : Fin S512x2048.rank) ∈ dot_S512x2048_S2048x128_S512x128_1_0_0_1_n_n.lhsBatch by decide),
        dif_pos (show (0 : Fin S512x2048.rank) ∈ dot_S512x2048_S2048x128_S512x128_1_0_0_1_n_n.lhsNonContracting by decide)]
      rfl)
    (fun j q => dot_S512x2048_S2048x128_S512x128_1_0_0_1_n_n.lhsIdx_val_of_single rfl j q)
    (fun j q => dot_S512x2048_S2048x128_S512x128_1_0_0_1_n_n.rhsIdx_val_of_single rfl j q)
    (fun j q => by
      unfold DotDims.rhsIdx
      rw [dif_neg (show ¬(1 : Fin S2048x128.rank) ∈ dot_S512x2048_S2048x128_S512x128_1_0_0_1_n_n.rhsBatch by decide),
        dif_pos (show (1 : Fin S2048x128.rank) ∈ dot_S512x2048_S2048x128_S512x128_1_0_0_1_n_n.rhsNonContracting by decide)]
      rfl)
    none l z r d

/-! ## The row softmax of a score block -/

/-- The block of shifted exponentials: each score less its row's maximum, exponentiated. -/
def shifted (s : FVec Ideal S512x2048 .f32) : FVec Ideal S512x2048 .f32 :=
  exp (subf s (broadcastTo S512x2048 (shapeCast S512x1
    (multiReduction .maximumf [1] S512 s 0xFF800000#32 reduces_S512x2048_S512 (.inl rfl) rfl) shapeCasts_S512_S512x1)
    broadcasts_S512x1_S512x2048))

/-- A block divided, row by row, by its row sums. -/
def normalized (e : FVec Ideal S512x2048 .f32) : FVec Ideal S512x2048 .f32 :=
  divf e (broadcastTo S512x2048 (shapeCast S512x1
    (multiReduction .add [1] S512 e 0x00000000#32 reduces_S512x2048_S512 (.inl rfl) rfl) shapeCasts_S512_S512x1)
    broadcasts_S512x1_S512x2048)

theorem shifted_at (s : FVec Ideal S512x2048 .f32) (r : Fin 512) (c : Fin 2048) :
    shifted s (ix2 r c) = rowExp (fun c' => s (ix2 r c')) c := by
  unfold shifted
  rw [Cert.Lib.MosaicRows.exp_at, subf_apply, Cert.Lib.MosaicRows.col_repeated, Cert.Sage.Layout.shapeCast_n_n1_apply,
    Cert.Lib.MosaicRows.rowMax_at]
  rfl

theorem normalized_at (e : FVec Ideal S512x2048 .f32) (r : Fin 512) (c : Fin 2048) :
    normalized e (ix2 r c) = Ideal.div (e (ix2 r c)) (∑ k : Fin 2048, e (ix2 r k)) := by
  unfold normalized
  rw [divf_apply, Cert.Lib.MosaicRows.col_repeated, Cert.Sage.Layout.shapeCast_n_n1_apply, Cert.Lib.MosaicRows.rowSum_at]

/-- The softmax of a score block at (r, c) is the row softmax weight of row r at c. -/
theorem softmax_at (s : FVec Ideal S512x2048 .f32) (r : Fin 512) (c : Fin 2048) :
    normalized (shifted s) (ix2 r c) = rowWeight (fun c' => s (ix2 r c')) c := by
  rw [normalized_at, shifted_at]
  unfold rowWeight
  exact congrArg _ (Finset.sum_congr rfl fun k _ => shifted_at s r k)

/-! ## The body's terms -/

/-- The score block the body forms from its loads. -/
def scoreBlock (w : Vec Ideal S512x2048 .i32) (x : Vec Ideal S1x512x128 .f32) (y : Vec Ideal S2048x128 .bf16) :
    FVec Ideal S512x2048 .f32 :=
  select (cmpi .ne (shapeCast S512x2048 w shapeCasts_S512x2048_S512x2048) (constantI S512x2048 32 0#32))
    (broadcast S512x2048 (Scalar.ofBits .f32 0xCE6E6B28#32))
    (matmul (φ₂ := .bf16) dot_S512x128_S2048x128_S512x2048_1_1_0_0_n_n none
      (truncf .bf16 (mulf (shapeCast S512x128 x shapeCasts_S1x512x128_S512x128)
        (broadcast S512x128 (Scalar.ofBits .f32 0x3DB504F3#32))) bitsLt_bf16_f32)
      y (constant S512x2048 .f32 0x00000000#32))

theorem scoreBlock_at (w : Vec Ideal S512x2048 .i32) (x : Vec Ideal S1x512x128 .f32) (y : Vec Ideal S2048x128 .bf16)
    (r : Fin 512) (c : Fin 2048) : scoreBlock w x y (ix2 r c) = kscores w x y r c := by
  unfold scoreBlock kscores
  rw [select_apply]
  refine congrArg₂ (Scalar.select · fillC ·) ?_ ?_
  · show IntOp.cmpi .ne (shapeCast S512x2048 w shapeCasts_S512x2048_S512x2048 (ix2 r c)) 0#32 = _
    rw [shapeCast_self]
  · refine (qk_at (φ₂ := .bf16) _ y r c).trans (Finset.sum_congr rfl fun d _ => ?_)
    rw [truncf_apply, mulf_apply, drop_unit_at]
    rfl

/-- The weights the body stores, before the recast to [1, 512, 2048]. -/
theorem weights_eq (w : Vec Ideal S512x2048 .i32) (x : Vec Ideal S1x512x128 .f32) (y : Vec Ideal S2048x128 .bf16) :
    k0_pay4 (F := Ideal) w x y = normalized (shifted (scoreBlock w x y)) := rfl

/-- The stored weights block at (0, r, c): the row softmax weight of the kernel's score row r at c. -/
theorem weights_at (w : Vec Ideal S512x2048 .i32) (x : Vec Ideal S1x512x128 .f32) (y : Vec Ideal S2048x128 .bf16)
    (r : Fin 512) (c : Fin 2048) :
    k0_pay5 (F := Ideal) w x y (ix3 (0 : Fin 1) r c) = rowWeight (kscores w x y r) c := by
  unfold k0_pay5
  rw [add_unit_at, weights_eq, softmax_at]
  exact congrArg (rowWeight · c) (funext fun c' => scoreBlock_at w x y r c')

/-- The stored context block at (0, r, d): the weights of row r contracted with the values. -/
theorem context_at (w : Vec Ideal S512x2048 .i32) (x : Vec Ideal S1x512x128 .f32) (y z : Vec Ideal S2048x128 .bf16)
    (r : Fin 512) (d : Fin 128) :
    k0_pay1 (F := Ideal) (k0_pay6 w x y z) (ix3 (0 : Fin 1) r d) = ∑ c : Fin 2048, rowWeight (kscores w x y r) c * z (ix2 c d) := by
  unfold k0_pay1 k0_pay6
  rw [add_unit_at]
  refine (av_at (φ₂ := .bf16) _ z r d).trans (Finset.sum_congr rfl fun c _ => ?_)
  rw [truncf_apply, weights_eq, softmax_at]
  exact congrArg (rowWeight · c * z (ix2 c d)) (funext fun c' => scoreBlock_at w x y r c')

/-- The scratch arrays hold the [1, 2048, 128] blocks recast: at (c, d) the block at (0, c, d). -/
theorem keys_at (x : Vec Ideal S1x2048x128 .f32) (c : Fin 2048) (d : Fin 128) :
    k0_pay2 (F := Ideal) x (ix2 c d) = x (ix3 (0 : Fin 1) c d) := by
  unfold k0_pay2
  rw [shapeCast_self, truncf_apply, drop_unit_at]

theorem values_at (x : Vec Ideal S1x2048x128 .f32) (c : Fin 2048) (d : Fin 128) :
    k0_pay3 (F := Ideal) x (ix2 c d) = x (ix3 (0 : Fin 1) c d) := by
  unfold k0_pay3
  rw [shapeCast_self, truncf_apply, drop_unit_at]

end Attn.Kernel

end
-- ==== Proof.KernelPieces.lean ====
/-
  What one run of the kernel body leaves in its two output blocks and its two carried scratch arrays, as the
  body's pure terms of what it loaded.

  At the first query tile of a (batch, head) pair the body first stores the key block and the value block, recast
  to [2048, 128], into the two scratch arrays, and then reads them back; at the other tiles it reads what the
  tile before left there. Either way the weights block is the softmax term of the mask rows of this tile, the
  query block and the scratch keys, and the context block is the weights contracted with the scratch values.
-/
import proofs.«118692_j82523501625734_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Attn.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 512 mask rows of a query tile: the rows from 512·(tile index) of the [2048, 2048] mask words. -/
def maskRows (i : grid0.Coords) (x0 : Vec F S2048x2048 .i32) : Vec F S512x2048 .i32 :=
  View.ld x0 (Rect.unit (s := S2048x2048) (k0_off1 i) S512x2048.size (k0_off1_inb i))

/-- First tile: the keys recast are left in the first scratch array. -/
theorem keys_first (c : Dev nD) (i : grid0.Coords) (arg2 : Memref sig .tc .vmem S2048x2048 .i32) (harg2 : arg2.IsWhole) (arg3 : Memref sig .tc .vmem S1x512x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x512x2048 .f32) (harg6 : arg6.IsWhole) (arg7 : Memref sig .tc .vmem S1x512x128 .f32) (harg7 : arg7.IsWhole) (arg8 : Memref sig .tc .vmem S2048x128 .bf16) (harg8 : arg8.IsWhole) (arg9 : Memref sig .tc .vmem S2048x128 .bf16) (harg9 : arg9.IsWhole) (hc0 : cond0_0 i) (x0 : Vec F S2048x2048 .i32) (x1 : Vec F S1x512x128 .f32) (x2 : Vec F S1x2048x128 .f32) (x3 : Vec F S1x2048x128 .f32) :
    sout0_A_0 c i arg2 harg2 arg3 harg3 arg4 harg4 arg5 harg5 arg6 harg6 arg7 harg7 arg8 harg8 arg9 harg9 hc0 x0 x1 x2 x3 = k0_pay2 x2 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz2]
  simp only [View.readAt_eq_ld, harg4.read_unread, View.ld_unit_zero (S := S1x2048x128) hz3]

/-- First tile: the values recast are left in the second scratch array. -/
theorem values_first (c : Dev nD) (i : grid0.Coords) (arg2 : Memref sig .tc .vmem S2048x2048 .i32) (harg2 : arg2.IsWhole) (arg3 : Memref sig .tc .vmem S1x512x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x512x2048 .f32) (harg6 : arg6.IsWhole) (arg7 : Memref sig .tc .vmem S1x512x128 .f32) (harg7 : arg7.IsWhole) (arg8 : Memref sig .tc .vmem S2048x128 .bf16) (harg8 : arg8.IsWhole) (arg9 : Memref sig .tc .vmem S2048x128 .bf16) (harg9 : arg9.IsWhole) (hc0 : cond0_0 i) (x0 : Vec F S2048x2048 .i32) (x1 : Vec F S1x512x128 .f32) (x2 : Vec F S1x2048x128 .f32) (x3 : Vec F S1x2048x128 .f32) :
    sout0_A_1 c i arg2 harg2 arg3 harg3 arg4 harg4 arg5 harg5 arg6 harg6 arg7 harg7 arg8 harg8 arg9 harg9 hc0 x0 x1 x2 x3 = k0_pay3 x3 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz2]
  simp only [View.readAt_eq_ld, harg5.read_unread, View.ld_unit_zero (S := S1x2048x128) hz3]

/-- First tile: the weights block. -/
theorem weights_first (c : Dev nD) (i : grid0.Coords) (arg2 : Memref sig .tc .vmem S2048x2048 .i32) (harg2 : arg2.IsWhole) (arg3 : Memref sig .tc .vmem S1x512x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x512x2048 .f32) (harg6 : arg6.IsWhole) (arg7 : Memref sig .tc .vmem S1x512x128 .f32) (harg7 : arg7.IsWhole) (arg8 : Memref sig .tc .vmem S2048x128 .bf16) (harg8 : arg8.IsWhole) (arg9 : Memref sig .tc .vmem S2048x128 .bf16) (harg9 : arg9.IsWhole) (hc0 : cond0_0 i) (x0 : Vec F S2048x2048 .i32) (x1 : Vec F S1x512x128 .f32) (x2 : Vec F S1x2048x128 .f32) (x3 : Vec F S1x2048x128 .f32) :
    out0_A_4 c i arg2 harg2 arg3 harg3 arg4 harg4 arg5 harg5 arg6 harg6 arg7 harg7 arg8 harg8 arg9 harg9 hc0 x0 x1 x2 x3 = k0_pay5 (maskRows i x0) x1 (k0_pay2 x2) := by
  unfold out0_A_4
  rw [View.read_writes_eq_canon _ _ _ (cover0_A_4 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz3]
  simp only [View.readAt_eq_ld, harg2.read_unread, harg3.read_unread, harg4.read_unread,
    View.ld_unit_zero (S := S1x512x128) hz3, View.ld_unit_zero (S := S1x2048x128) hz3, View.readCov_unit_zero (S := S2048x128) arg8.view hz2, View.readCov_unit_zero (S := S2048x128) arg9.view hz2]
  rfl

/-- First tile: the context block. -/
theorem context_first (c : Dev nD) (i : grid0.Coords) (arg2 : Memref sig .tc .vmem S2048x2048 .i32) (harg2 : arg2.IsWhole) (arg3 : Memref sig .tc .vmem S1x512x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x512x2048 .f32) (harg6 : arg6.IsWhole) (arg7 : Memref sig .tc .vmem S1x512x128 .f32) (harg7 : arg7.IsWhole) (arg8 : Memref sig .tc .vmem S2048x128 .bf16) (harg8 : arg8.IsWhole) (arg9 : Memref sig .tc .vmem S2048x128 .bf16) (harg9 : arg9.IsWhole) (hc0 : cond0_0 i) (x0 : Vec F S2048x2048 .i32) (x1 : Vec F S1x512x128 .f32) (x2 : Vec F S1x2048x128 .f32) (x3 : Vec F S1x2048x128 .f32) :
    out0_A_5 c i arg2 harg2 arg3 harg3 arg4 harg4 arg5 harg5 arg6 harg6 arg7 harg7 arg8 harg8 arg9 harg9 hc0 x0 x1 x2 x3 = k0_pay1 (k0_pay6 (maskRows i x0) x1 (k0_pay2 x2) (k0_pay3 x3)) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz3]
  simp only [View.readAt_eq_ld, harg2.read_unread, harg3.read_unread, harg4.read_unread, harg5.read_unread,
    View.ld_unit_zero (S := S1x512x128) hz3, View.ld_unit_zero (S := S1x2048x128) hz3, View.readCov_unit_zero (S := S2048x128) arg8.view hz2, View.readCov_unit_zero (S := S2048x128) arg9.view hz2]
  rfl

/-- Later tiles: the weights block, over the scratch keys the tile before left. -/
theorem weights_later (c : Dev nD) (i : grid0.Coords) (arg2 : Memref sig .tc .vmem S2048x2048 .i32) (harg2 : arg2.IsWhole) (arg3 : Memref sig .tc .vmem S1x512x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x512x2048 .f32) (harg6 : arg6.IsWhole) (arg7 : Memref sig .tc .vmem S1x512x128 .f32) (harg7 : arg7.IsWhole) (arg8 : Memref sig .tc .vmem S2048x128 .bf16) (harg8 : arg8.IsWhole) (arg9 : Memref sig .tc .vmem S2048x128 .bf16) (harg9 : arg9.IsWhole) (hc0 : ¬cond0_0 i) (x0 : Vec F S2048x2048 .i32) (x1 : Vec F S1x512x128 .f32) (x2 : Vec F S1x2048x128 .f32) (x3 : Vec F S1x2048x128 .f32) (xs0 xs1 : Vec F S2048x128 .bf16) :
    out0_B_4 c i arg2 harg2 arg3 harg3 arg4 harg4 arg5 harg5 arg6 harg6 arg7 harg7 arg8 harg8 arg9 harg9 hc0 x0 x1 x2 x3 xs0 xs1 = k0_pay5 (maskRows i x0) x1 xs0 := by
  unfold out0_B_4
  rw [View.read_writes_eq_canon _ _ _ (cover0_B_4 c i arg2 harg2 arg3 harg3 arg4 harg4 arg5 harg5 arg6 harg6 arg7 harg7 arg8 harg8 arg9 harg9 hc0 x0 x1 x2 x3 xs0 xs1)]
  unfold kernelRun0_B
  dsimp only
  rw [View.canon_unit_zero hz3]
  simp only [View.readAt_eq_ld, harg2.read_unread, harg3.read_unread, harg8.read_unread,
    View.ld_unit_zero (S := S1x512x128) hz3, View.ld_unit_zero (S := S2048x128) hz2]
  rfl

/-- Later tiles: the context block, over the scratch keys and values the tile before left. -/
theorem context_later (c : Dev nD) (i : grid0.Coords) (arg2 : Memref sig .tc .vmem S2048x2048 .i32) (harg2 : arg2.IsWhole) (arg3 : Memref sig .tc .vmem S1x512x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x512x2048 .f32) (harg6 : arg6.IsWhole) (arg7 : Memref sig .tc .vmem S1x512x128 .f32) (harg7 : arg7.IsWhole) (arg8 : Memref sig .tc .vmem S2048x128 .bf16) (harg8 : arg8.IsWhole) (arg9 : Memref sig .tc .vmem S2048x128 .bf16) (harg9 : arg9.IsWhole) (hc0 : ¬cond0_0 i) (x0 : Vec F S2048x2048 .i32) (x1 : Vec F S1x512x128 .f32) (x2 : Vec F S1x2048x128 .f32) (x3 : Vec F S1x2048x128 .f32) (xs0 xs1 : Vec F S2048x128 .bf16) :
    out0_B_5 c i arg2 harg2 arg3 harg3 arg4 harg4 arg5 harg5 arg6 harg6 arg7 harg7 arg8 harg8 arg9 harg9 hc0 x0 x1 x2 x3 xs0 xs1 = k0_pay1 (k0_pay6 (maskRows i x0) x1 xs0 xs1) := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 xs0 xs1)]
  unfold kernelRun0_B
  dsimp only
  sl_unfold_words
  rw [View.canon_unit_zero hz3]
  simp only [View.readAt_eq_ld, harg2.read_unread, harg3.read_unread, harg8.read_unread, harg9.read_unread,
    View.ld_unit_zero (S := S1x512x128) hz3, View.ld_unit_zero (S := S2048x128) hz2]
  rfl

end Attn.Pieces

end
-- ==== Proof.KernelArrays.lean ====
/-
  The kernel's two result arrays as whole-array functions of the arrays it is launched on, and the block lemma:
  what the body leaves at query tile qi of (batch·head) bh is the tile's block of those functions.

  On the mask words W [2048, 2048], queries Q, keys K and values V [32, 2048, 128]:
    row(bh, q)(c)      = fill where W(q, c) ≠ 0, else ∑_d (Q(bh,q,d)·scale)·K(bh,c,d);
    weights(bh, q, c)  = the row softmax weight of row(bh, q) at c;
    context(bh, q, d)  = ∑_c weights(bh, q, c) · V(bh, c, d).
  Tile qi of the body reads mask rows 512·qi + r, query rows 512·qi + r of bh, and all key and value rows of bh.
-/
import proofs.«118692_j82523501625734_2_alg».proof.Proof.KernelRows
import proofs.«118692_j82523501625734_2_alg».proof.Proof.KernelPieces

noncomputable section

namespace Attn.Arrays

open Cert.KernelIdeal Cert.KernelIdeal.Gen Idealize.ShloMosaic Idealize.ShloMosaic.ValueIdx Attn.Spec Attn.Kernel Attn.Pieces

/-- The score row of query row q of pair bh against every key row of bh. -/
def row3 (W : S2048x2048.Idx → BitVec 32) (Q K : S32x2048x128.Idx → EReal) (bh : Fin 32) (q : Fin 2048) : Fin 2048 → EReal :=
  fun c => Scalar.select (IntOp.cmpi .ne (W (ix2 q c)) 0#32) fillC (∑ d : Fin 128, (Q (ix3 bh q d) * scaleC) * K (ix3 bh c d))

/-- The weights array [32, 2048, 2048]. -/
def weights3 (W : S2048x2048.Idx → BitVec 32) (Q K : S32x2048x128.Idx → EReal) : S32x2048x2048.Idx → EReal :=
  fun i => rowWeight (row3 W Q K (i 0) (i 1)) (i 2)

/-- The context array [32, 2048, 128]. -/
def context3 (W : S2048x2048.Idx → BitVec 32) (Q K V : S32x2048x128.Idx → EReal) : S32x2048x128.Idx → EReal :=
  fun i => ∑ c : Fin 2048, rowWeight (row3 W Q K (i 0) (i 1)) c * V (ix3 (i 0) c (i 2))

/-- The [2048, 128] rows of pair bh of a [32, 2048, 128] array. -/
def slab (K : S32x2048x128.Idx → EReal) (bh : Fin 32) : Vec Ideal S2048x128 .bf16 := fun j => K (ix3 bh (j 0) (j 1))

/-- Row 512·qi + r of the array. -/
abbrev tileRow (qi : Fin 4) (r : Fin 512) : Fin 2048 := ⟨512 * qi.val + r.val, by have := qi.isLt; have := r.isLt; omega⟩

/-- The body's score row r at tile qi of pair bh is the array's score row 512·qi + r of bh. -/
theorem row_eq (W : S2048x2048.Idx → BitVec 32) (Q K : S32x2048x128.Idx → EReal)
    (w : Vec Ideal S2048x2048 .i32) (x : Vec Ideal S1x512x128 .f32) (i : grid0.Coords) (bh : Fin 32) (qi : Fin 4)
    (hoff0 : k0_off1 i 0 = 512 * qi.val) (hoff1 : k0_off1 i 1 = 0)
    (hw : w = W) (hx : ∀ (r : Fin 512) (d : Fin 128), x (ix3 (0 : Fin 1) r d) = Q (ix3 bh (tileRow qi r) d)) (r : Fin 512) :
    kscores (maskRows i w) x (slab K bh) r = row3 W Q K bh (tileRow qi r) := by
  funext c
  unfold kscores row3
  have hm : maskRows i w (ix2 r c) = W (ix2 (tileRow qi r) c) := by
    subst hw
    unfold maskRows
    show w _ = w _
    refine congrArg w (funext fun a => Fin.ext ?_)
    match a with
    | ⟨0, _⟩ => show k0_off1 i 0 + 1 * r.val = 512 * qi.val + r.val; rw [hoff0]; omega
    | ⟨1, _⟩ => show k0_off1 i 1 + 1 * c.val = c.val; rw [hoff1]; omega
  rw [hm]
  refine congrArg (Scalar.select _ fillC) (Finset.sum_congr rfl fun d _ => ?_)
  rw [hx r d]
  rfl

/-- The weights block the body stores at tile qi of pair bh, at (0, r, c). -/
theorem weights_block (W : S2048x2048.Idx → BitVec 32) (Q K : S32x2048x128.Idx → EReal)
    (w : Vec Ideal S2048x2048 .i32) (x : Vec Ideal S1x512x128 .f32) (i : grid0.Coords) (bh : Fin 32) (qi : Fin 4)
    (hoff0 : k0_off1 i 0 = 512 * qi.val) (hoff1 : k0_off1 i 1 = 0)
    (hw : w = W) (hx : ∀ (r : Fin 512) (d : Fin 128), x (ix3 (0 : Fin 1) r d) = Q (ix3 bh (tileRow qi r) d))
    (r : Fin 512) (c : Fin 2048) :
    k0_pay5 (F := Ideal) (maskRows i w) x (slab K bh) (ix3 (0 : Fin 1) r c) = weights3 W Q K (ix3 bh (tileRow qi r) c) := by
  rw [weights_at, row_eq W Q K w x i bh qi hoff0 hoff1 hw hx r]
  rfl

/-- The context block the body stores at tile qi of pair bh, at (0, r, d). -/
theorem context_block (W : S2048x2048.Idx → BitVec 32) (Q K V : S32x2048x128.Idx → EReal)
    (w : Vec Ideal S2048x2048 .i32) (x : Vec Ideal S1x512x128 .f32) (i : grid0.Coords) (bh : Fin 32) (qi : Fin 4)
    (hoff0 : k0_off1 i 0 = 512 * qi.val) (hoff1 : k0_off1 i 1 = 0)
    (hw : w = W) (hx : ∀ (r : Fin 512) (d : Fin 128), x (ix3 (0 : Fin 1) r d) = Q (ix3 bh (tileRow qi r) d))
    (r : Fin 512) (d : Fin 128) :
    k0_pay1 (F := Ideal) (k0_pay6 (maskRows i w) x (slab K bh) (slab V bh)) (ix3 (0 : Fin 1) r d)
      = context3 W Q K V (ix3 bh (tileRow qi r) d) := by
  rw [context_at, row_eq W Q K w x i bh qi hoff0 hoff1 hw hx r]
  rfl

end Attn.Arrays

end
-- ==== Proof.KernelRun.lean ====
/-
  The kernel's run, read: after it the two result arrays hold the weights and the context of the arrays the
  region is launched on, recast to four axes.

  Grid point t = 4·bh + qi works on query tile qi of pair bh. The two scratch arrays are written at qi = 0 with the
  key and value rows of bh and are only read at qi = 1, 2, 3, so after EVERY point they hold the rows of that
  point's pair (induction on the point). Hence every point leaves in the two output blocks the blocks of the
  whole-array weights and context; the blocks tile the arrays, so the arrays end holding those functions.
-/
import proofs.«118692_j82523501625734_2_alg».proof.Proof.Gen.KernelIdeal.Frame
import proofs.«118692_j82523501625734_2_alg».proof.Proof.KernelArrays
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Attn.Run

open Cert.KernelIdeal Cert.KernelIdeal.Gen Attn.Spec Attn.Kernel Attn.Pieces Attn.Arrays

variable (m : (ℓ : Loc nD τ sig) → Buf (Elt Ideal) ℓ) (ρ : Dev nD → PrngReg)

/-- The pair (batch·head) of position n of the grid. -/
abbrev pairAt (n : ℕ) (h : n < cfg0.N) : Fin 32 := ⟨n / 4, by have : cfg0.N = 128 := N_0; omega⟩
/-- The query tile of a grid point. -/
abbrev tileAt (t : Fin cfg0.N) : Fin 4 := ⟨t.val % 4, Nat.mod_lt _ (by decide)⟩

/-- The printed index maps and the mask load's offsets, decided over the grid. -/
theorem grid_facts : ∀ t : Fin cfg0.N,
    k0_off1 (grid0.coords t) 0 = 512 * (t.val % 4) ∧ k0_off1 (grid0.coords t) 1 = 0
    ∧ win0_0.index t (0 : Fin 2) = 0 ∧ win0_0.index t (1 : Fin 2) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0
    ∧ win0_4.index t (0 : Fin 3) = t.val / 4 ∧ win0_4.index t (1 : Fin 3) = t.val % 4 ∧ win0_4.index t (2 : Fin 3) = 0
    ∧ win0_5.index t (0 : Fin 3) = t.val / 4 ∧ win0_5.index t (1 : Fin 3) = t.val % 4 ∧ win0_5.index t (2 : Fin 3) = 0 :=
  (by decide +kernel : ∀ t : Fin grid0.N, _)

/-! ## The input blocks -/

/-- The mask window's block is the whole array of mask words, at every point. -/
theorem mask_block (c : Dev nD) (t : Fin cfg0.N) : (iblk m c 0 t : Vec Ideal S2048x2048 .i32) = V m c main_v4 := by
  obtain ⟨-, -, e0, e1, -⟩ := grid_facts t
  funext y
  unfold iblk
  show V m c main_v4 (((cfg0.win 0).blk t).view.emb y) = V m c main_v4 y
  refine congrArg (V m c main_v4) (funext fun a => Fin.ext ?_)
  match a with
  | ⟨0, _⟩ => show win0_0.index t (0 : Fin 2) * 2048 + 1 * (y 0).val = (y 0).val; rw [e0]; omega
  | ⟨1, _⟩ => show win0_0.index t (1 : Fin 2) * 2048 + 1 * (y 1).val = (y 1).val; rw [e1]; omega

/-- The query window's block at point t: rows 512·qi + r of pair bh. -/
theorem query_block (c : Dev nD) (t : Fin cfg0.N) (r : Fin 512) (d : Fin 128) :
    (iblk m c 1 t : Vec Ideal S1x512x128 .f32) (ix3 (0 : Fin 1) r d)
      = V m c main_v0 (ix3 (pairAt t.val t.isLt) (tileRow (tileAt t) r) d) := by
  obtain ⟨-, -, -, -, e0, e1, e2, -⟩ := grid_facts t
  unfold iblk
  show V m c main_v0 (((cfg0.win 1).blk t).view.emb (ix3 (0 : Fin 1) r d)) = _
  refine congrArg (V m c main_v0) (funext fun a => Fin.ext ?_)
  match a with
  | ⟨0, _⟩ => show win0_1.index t (0 : Fin 3) * 1 + 1 * 0 = t.val / 4; rw [e0]; omega
  | ⟨1, _⟩ => show win0_1.index t (1 : Fin 3) * 512 + 1 * r.val = 512 * (t.val % 4) + r.val; rw [e1]; omega
  | ⟨2, _⟩ => show win0_1.index t (2 : Fin 3) * 128 + 1 * d.val = d.val; rw [e2]; omega

/-- The key window's block at point t, recast, is the key rows of the point's pair. -/
theorem key_block (c : Dev nD) (t : Fin cfg0.N) :
    k0_pay2 (F := Ideal) (iblk m c 2 t) = slab (V m c main_v1) (pairAt t.val t.isLt) := by
  obtain ⟨-, -, -, -, -, -, -, e0, e1, e2, -⟩ := grid_facts t
  funext j
  obtain ⟨p, q, rfl⟩ : ∃ (p : Fin 2048) (q : Fin 128), j = ix2 p q := ⟨j 0, j 1, eq_ix2 j⟩
  rw [keys_at]
  unfold iblk slab
  show V m c main_v1 (((cfg0.win 2).blk t).view.emb (ix3 (0 : Fin 1) p q)) = V m c main_v1 _
  refine congrArg (V m c main_v1) (funext fun a => Fin.ext ?_)
  match a with
  | ⟨0, _⟩ => show win0_2.index t (0 : Fin 3) * 1 + 1 * 0 = t.val / 4; rw [e0]; omega
  | ⟨1, _⟩ => show win0_2.index t (1 : Fin 3) * 2048 + 1 * p.val = p.val; rw [e1]; omega
  | ⟨2, _⟩ => show win0_2.index t (2 : Fin 3) * 128 + 1 * q.val = q.val; rw [e2]; omega

/-- The value window's block at point t, recast, is the value rows of the point's pair. -/
theorem value_block (c : Dev nD) (t : Fin cfg0.N) :
    k0_pay3 (F := Ideal) (iblk m c 3 t) = slab (V m c main_v2) (pairAt t.val t.isLt) := by
  obtain ⟨-, -, -, -, -, -, -, -, -, -, e0, e1, e2, -⟩ := grid_facts t
  funext j
  obtain ⟨p, q, rfl⟩ : ∃ (p : Fin 2048) (q : Fin 128), j = ix2 p q := ⟨j 0, j 1, eq_ix2 j⟩
  rw [values_at]
  unfold iblk slab
  show V m c main_v2 (((cfg0.win 3).blk t).view.emb (ix3 (0 : Fin 1) p q)) = V m c main_v2 _
  refine congrArg (V m c main_v2) (funext fun a => Fin.ext ?_)
  match a with
  | ⟨0, _⟩ => show win0_3.index t (0 : Fin 3) * 1 + 1 * 0 = t.val / 4; rw [e0]; omega
  | ⟨1, _⟩ => show win0_3.index t (1 : Fin 3) * 2048 + 1 * p.val = p.val; rw [e1]; omega
  | ⟨2, _⟩ => show win0_3.index t (2 : Fin 3) * 128 + 1 * q.val = q.val; rw [e2]; omega

/-! ## The carried scratch arrays -/

/-- At the first tile of a pair the body itself writes the pair's key and value rows into the scratch arrays. -/
theorem scratch_first (c : Dev nD) (t : Fin cfg0.N) (h0 : t.val % 4 = 0) :
    (outsAt0 m c t.val t.isLt).2.2.1 = slab (V m c main_v1) (pairAt t.val t.isLt)
      ∧ (outsAt0 m c t.val t.isLt).2.2.2 = slab (V m c main_v2) (pairAt t.val t.isLt) := by
  rw [outsAt0_A m c t h0]
  dsimp only
  refine ⟨?_, ?_⟩
  · exact (keys_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)).trans (key_block m c t)
  · exact (values_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)).trans (value_block m c t)

/-- At a later tile the body leaves the scratch arrays as the tile before left them. -/
theorem scratch_later (c : Dev nD) (t : Fin cfg0.N) (h0 : ¬t.val % 4 = 0) :
    (outsAt0 m c t.val t.isLt).2.2.1 = (outsAt0 m c (t.val - 1) (Nat.lt_of_le_of_lt (Nat.sub_le _ _) t.isLt)).2.2.1
      ∧ (outsAt0 m c t.val t.isLt).2.2.2 = (outsAt0 m c (t.val - 1) (Nat.lt_of_le_of_lt (Nat.sub_le _ _) t.isLt)).2.2.2 := by
  rw [outsAt0_B m c t h0]
  exact ⟨rfl, rfl⟩

/-- After every point the first scratch array holds the key rows of that point's pair, the second its value rows. -/
theorem scratch_after (c : Dev nD) : ∀ (n : ℕ) (h : n < cfg0.N),
    (outsAt0 m c n h).2.2.1 = slab (V m c main_v1) (pairAt n h) ∧ (outsAt0 m c n h).2.2.2 = slab (V m c main_v2) (pairAt n h) := by
  intro n
  induction n with
  | zero => intro h; exact scratch_first m c ⟨0, h⟩ rfl
  | succ n ih =>
    intro h
    by_cases h0 : (n + 1) % 4 = 0
    · exact scratch_first m c ⟨n + 1, h⟩ h0
    · have hp : pairAt n (Nat.lt_of_succ_lt h) = pairAt (n + 1) h := Fin.ext (by
        show n / 4 = (n + 1) / 4
        omega)
      obtain ⟨ihk, ihv⟩ := ih (Nat.lt_of_succ_lt h)
      obtain ⟨ek, ev⟩ := scratch_later m c ⟨n + 1, h⟩ h0
      refine ⟨ek.trans ?_, ev.trans ?_⟩
      · show (outsAt0 m c n _).2.2.1 = _
        rw [ihk, hp]
      · show (outsAt0 m c n _).2.2.2 = _
        rw [ihv, hp]

/-! ## What each point leaves in the output blocks -/

/-- The weights block after point t. -/
theorem weights_after (c : Dev nD) (t : Fin cfg0.N) :
    (outsAt0 m c t.val t.isLt).1
      = k0_pay5 (F := Ideal) (maskRows (grid0.coords t) (iblk m c 0 t)) (iblk m c 1 t) (slab (V m c main_v1) (pairAt t.val t.isLt)) := by
  by_cases h0 : t.val % 4 = 0
  · rw [outsAt0_A m c t h0]
    dsimp only
    refine (weights_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)).trans ?_
    rw [key_block]
  · have hlt : t.val - 1 < cfg0.N := Nat.lt_of_le_of_lt (Nat.sub_le _ _) t.isLt
    have hp : pairAt (t.val - 1) hlt = pairAt t.val t.isLt := Fin.ext (by show (t.val - 1) / 4 = t.val / 4; omega)
    rw [outsAt0_B m c t h0]
    dsimp only
    refine (weights_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t)
      (outsAt0 m c (t.val - 1) hlt).2.2.1 (outsAt0 m c (t.val - 1) hlt).2.2.2).trans ?_
    rw [(scratch_after m c (t.val - 1) hlt).1, hp]

/-- The context block after point t. -/
theorem context_after (c : Dev nD) (t : Fin cfg0.N) :
    (outsAt0 m c t.val t.isLt).2.1
      = k0_pay1 (F := Ideal) (k0_pay6 (maskRows (grid0.coords t) (iblk m c 0 t)) (iblk m c 1 t)
          (slab (V m c main_v1) (pairAt t.val t.isLt)) (slab (V m c main_v2) (pairAt t.val t.isLt))) := by
  by_cases h0 : t.val % 4 = 0
  · rw [outsAt0_A m c t h0]
    dsimp only
    refine (context_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)).trans ?_
    rw [key_block, value_block]
  · have hlt : t.val - 1 < cfg0.N := Nat.lt_of_le_of_lt (Nat.sub_le _ _) t.isLt
    have hp : pairAt (t.val - 1) hlt = pairAt t.val t.isLt := Fin.ext (by show (t.val - 1) / 4 = t.val / 4; omega)
    rw [outsAt0_B m c t h0]
    dsimp only
    refine (context_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t)
      (outsAt0 m c (t.val - 1) hlt).2.2.1 (outsAt0 m c (t.val - 1) hlt).2.2.2).trans ?_
    rw [(scratch_after m c (t.val - 1) hlt).1, (scratch_after m c (t.val - 1) hlt).2, hp]

end Attn.Run

end
-- ==== Proof.KernelFinal.lean ====
/-
  From blocks to arrays, and the run.

  Point t = 4·bh + qi writes back rows 512·qi … 512·qi + 511 of pair bh of each result array, and what it writes is
  that block of the whole-array weights (context) function; the 128 blocks tile the arrays. After the region the
  two arrays are recast to four axes, and nothing else is written.
-/
import proofs.«118692_j82523501625734_2_alg».proof.Proof.KernelRun

set_option maxRecDepth 16384

noncomputable section

open Idealize.ShloMosaic Idealize.ShloMosaic.TcCoe Idealize.SL.Sem Idealize.ShloMosaic.ValueIdx
open Idealize.ShloMosaic.Pipeline (Dat)

namespace Attn.Final

open Cert.KernelIdeal Cert.KernelIdeal.Gen Attn.Spec Attn.Kernel Attn.Pieces Attn.Arrays Attn.Run

variable (m : (ℓ : Loc nD τ sig) → Buf (Elt Ideal) ℓ) (ρ : Dev nD → PrngReg)

/-- The weights of the arrays the region is launched on. -/
abbrev weightsOf (c : Dev nD) : S32x2048x2048.Idx → EReal := weights3 (V m c main_v4) (V m c main_v0) (V m c main_v1)
/-- The context of the arrays the region is launched on. -/
abbrev contextOf (c : Dev nD) : S32x2048x128.Idx → EReal := context3 (V m c main_v4) (V m c main_v0) (V m c main_v1) (V m c main_v2)

/-- What point t writes back of the weights is block t of the weights function. -/
theorem flushed_weights (c : Dev nD) (t : Fin cfg0.N) (hf : (cfg0.win 4).flush t = true) :
    (dats m 0 c).flushed 4 t = ((cfg0.win 4).blk t).view.read (Elt Ideal) (weightsOf m c) := by
  obtain ⟨o0, o1, -, -, -, -, -, -, -, -, -, -, -, e0, e1, e2, -⟩ := grid_facts t
  show (cfg0.win 4).cut (grid0.coords t) ((dats m 0 c).after 4 t) = _
  rw [after0_4, weights_after]
  refine funext fun (y : S1x512x2048.Idx) => ?_
  obtain ⟨r, q, rfl⟩ : ∃ (r : Fin 512) (q : Fin 2048), y = ix3 (0 : Fin 1) r q :=
    ⟨y 1, y 2, (eq_ix3 y).trans (congrArg (fun z : Fin 1 => ix3 z (y 1) (y 2)) (Fin.ext (Nat.lt_one_iff.mp (y 0).isLt)))⟩
  show k0_pay5 (F := Ideal) (maskRows (grid0.coords t) (iblk m c 0 t)) (iblk m c 1 t) (slab (V m c main_v1) (pairAt t.val t.isLt)) (ix3 (0 : Fin 1) r q)
      = weightsOf m c (((cfg0.win 4).blk t).view.emb (ix3 (0 : Fin 1) r q))
  refine (weights_block (V m c main_v4) (V m c main_v0) (V m c main_v1) (iblk m c 0 t) (iblk m c 1 t) (grid0.coords t)
    (pairAt t.val t.isLt) (tileAt t) o0 o1 (mask_block m c t) (query_block m c t) r q).trans ?_
  refine congrArg (weightsOf m c) (funext fun a => Fin.ext ?_)
  match a with
  | ⟨0, _⟩ => show t.val / 4 = win0_4.index t (0 : Fin 3) * 1 + 1 * 0; rw [e0]; omega
  | ⟨1, _⟩ => show 512 * (t.val % 4) + r.val = win0_4.index t (1 : Fin 3) * 512 + 1 * r.val; rw [e1]; omega
  | ⟨2, _⟩ => show q.val = win0_4.index t (2 : Fin 3) * 2048 + 1 * q.val; rw [e2]; omega

/-- What point t writes back of the context is block t of the context function. -/
theorem flushed_context (c : Dev nD) (t : Fin cfg0.N) (hf : (cfg0.win 5).flush t = true) :
    (dats m 0 c).flushed 5 t = ((cfg0.win 5).blk t).view.read (Elt Ideal) (contextOf m c) := by
  obtain ⟨o0, o1, -, -, -, -, -, -, -, -, -, -, -, -, -, -, e0, e1, e2⟩ := grid_facts t
  show (cfg0.win 5).cut (grid0.coords t) ((dats m 0 c).after 5 t) = _
  rw [after0_5, context_after]
  refine funext fun (y : S1x512x128.Idx) => ?_
  obtain ⟨r, q, rfl⟩ : ∃ (r : Fin 512) (q : Fin 128), y = ix3 (0 : Fin 1) r q :=
    ⟨y 1, y 2, (eq_ix3 y).trans (congrArg (fun z : Fin 1 => ix3 z (y 1) (y 2)) (Fin.ext (Nat.lt_one_iff.mp (y 0).isLt)))⟩
  show k0_pay1 (F := Ideal) (k0_pay6 (maskRows (grid0.coords t) (iblk m c 0 t)) (iblk m c 1 t) (slab (V m c main_v1) (pairAt t.val t.isLt))
        (slab (V m c main_v2) (pairAt t.val t.isLt))) (ix3 (0 : Fin 1) r q)
      = contextOf m c (((cfg0.win 5).blk t).view.emb (ix3 (0 : Fin 1) r q))
  refine (context_block (V m c main_v4) (V m c main_v0) (V m c main_v1) (V m c main_v2) (iblk m c 0 t) (iblk m c 1 t) (grid0.coords t)
    (pairAt t.val t.isLt) (tileAt t) o0 o1 (mask_block m c t) (query_block m c t) r q).trans ?_
  refine congrArg (contextOf m c) (funext fun a => Fin.ext ?_)
  match a with
  | ⟨0, _⟩ => show t.val / 4 = win0_5.index t (0 : Fin 3) * 1 + 1 * 0; rw [e0]; omega
  | ⟨1, _⟩ => show 512 * (t.val % 4) + r.val = win0_5.index t (1 : Fin 3) * 512 + 1 * r.val; rw [e1]; omega
  | ⟨2, _⟩ => show q.val = win0_5.index t (2 : Fin 3) * 128 + 1 * q.val; rw [e2]; omega

/-- Every entry of the weights array is in the block of the point of its pair and tile. -/
theorem cover_weights (i : S32x2048x2048.Idx) :
    ∃ t : Fin cfg0.N, (cfg0.win 4).flush t = true ∧ i ∈ ((cfg0.win 4).blk t).view.set := by
  have hN : cfg0.N = 128 := N_0
  have h0 : (i 0).val < 32 := (i 0).isLt
  have h1 : (i 1).val < 2048 := (i 1).isLt
  have h2 : (i 2).val < 2048 := (i 2).isLt
  obtain ⟨t, ht⟩ : ∃ t : Fin cfg0.N, t.val = 4 * (i 0).val + (i 1).val / 512 := ⟨⟨4 * (i 0).val + (i 1).val / 512, by omega⟩, rfl⟩
  obtain ⟨-, -, -, -, -, -, -, -, -, -, -, -, -, e0, e1, e2, -⟩ := grid_facts t
  refine ⟨t, flush0_4 t, ?_⟩
  show i ∈ ((View.whole main_v5_0).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; rw [e0]; omega
  | ⟨1, _⟩ => show win0_4.index t (1 : Fin 3) * 512 ≤ (i 1).val ∧ (i 1).val < win0_4.index t (1 : Fin 3) * 512 + 512; rw [e1]; omega
  | ⟨2, _⟩ => show win0_4.index t (2 : Fin 3) * 2048 ≤ (i 2).val ∧ (i 2).val < win0_4.index t (2 : Fin 3) * 2048 + 2048; rw [e2]; omega

/-- Every entry of the context array is in the block of the point of its pair and tile. -/
theorem cover_context (i : S32x2048x128.Idx) :
    ∃ t : Fin cfg0.N, (cfg0.win 5).flush t = true ∧ i ∈ ((cfg0.win 5).blk t).view.set := by
  have hN : cfg0.N = 128 := N_0
  have h0 : (i 0).val < 32 := (i 0).isLt
  have h1 : (i 1).val < 2048 := (i 1).isLt
  have h2 : (i 2).val < 128 := (i 2).isLt
  obtain ⟨t, ht⟩ : ∃ t : Fin cfg0.N, t.val = 4 * (i 0).val + (i 1).val / 512 := ⟨⟨4 * (i 0).val + (i 1).val / 512, by omega⟩, rfl⟩
  obtain ⟨-, -, -, -, -, -, -, -, -, -, -, -, -, -, -, -, e0, e1, e2⟩ := grid_facts t
  refine ⟨t, flush0_5 t, ?_⟩
  show i ∈ ((View.whole main_v5_1).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; rw [e0]; omega
  | ⟨1, _⟩ => show win0_5.index t (1 : Fin 3) * 512 ≤ (i 1).val ∧ (i 1).val < win0_5.index t (1 : Fin 3) * 512 + 512; rw [e1]; omega
  | ⟨2, _⟩ => show win0_5.index t (2 : Fin 3) * 128 ≤ (i 2).val ∧ (i 2).val < win0_5.index t (2 : Fin 3) * 128 + 128; rw [e2]; omega

/-- After the region the weights array holds the weights function. -/
theorem final_weights (c : Dev nD) : (dats m 0 c).arrAt 4 cfg0.N = weightsOf m c :=
  (dats m 0 c).arrAt_eq_of_cover 4 (weightsOf m c) (flushed_weights m c) cover_weights

/-- After the region the context array holds the context function. -/
theorem final_context (c : Dev nD) : (dats m 0 c).arrAt 5 cfg0.N = contextOf m c :=
  (dats m 0 c).arrAt_eq_of_cover 5 (contextOf m c) (flushed_context m c) cover_context

/-- The first result: the context array recast to [2, 16, 2048, 128]. -/
theorem tail_context (c : Dev nD) :
    Pipeline.afterTail₀ cfgs (dats m) 0 (V0 m) [hostOps1] c main_v6
      = shapeCast S2x16x2048x128 (contextOf m c) shapeCasts_S32x2048x128_S2x16x2048x128 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5_1)
      = contextOf m c := (Pipeline.withArrays_arr spec0 launch0.win.arr_inj c _ _ 5).trans (final_context m c)
  rw [e]
  rfl

/-- The second result: the weights array recast to [2, 16, 2048, 2048]. -/
theorem tail_weights (c : Dev nD) :
    Pipeline.afterTail₀ cfgs (dats m) 0 (V0 m) [hostOps1] c main_v7
      = shapeCast S2x16x2048x2048 (weightsOf m c) shapeCasts_S32x2048x2048_S2x16x2048x2048 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v5_0)
      = weightsOf m c := (Pipeline.withArrays_arr spec0 launch0.win.arr_inj c _ _ 4).trans (final_weights m c)
  rw [e]
  rfl

/-! ## The arrays the region is launched on -/

/-- The queries as the region finds them: the first argument recast to [32, 2048, 128]. -/
theorem queries_in (c : Dev nD) :
    V m c main_v0 = shapeCast S32x2048x128 (m ((c.tc : Thread nD τ).loc main_arg0)) shapeCasts_S2x16x2048x128_S32x2048x128 := by
  show StableHlo.after hostOps0 (fun b => m (c, b)) (Proc.devRef .tc main_v0) = _
  after_results
  rfl

/-- The keys as the region finds them. -/
theorem keys_in (c : Dev nD) :
    V m c main_v1 = shapeCast S32x2048x128 (m ((c.tc : Thread nD τ).loc main_arg1)) shapeCasts_S2x16x2048x128_S32x2048x128 := by
  show StableHlo.after hostOps0 (fun b => m (c, b)) (Proc.devRef .tc main_v1) = _
  after_results
  rfl

/-- The values as the region finds them. -/
theorem values_in (c : Dev nD) :
    V m c main_v2 = shapeCast S32x2048x128 (m ((c.tc : Thread nD τ).loc main_arg2)) shapeCasts_S2x16x2048x128_S32x2048x128 := by
  show StableHlo.after hostOps0 (fun b => m (c, b)) (Proc.devRef .tc main_v2) = _
  after_results
  rfl

/-- The mask words as the region finds them: the mask recast to [2048, 2048] and widened. -/
theorem mask_in (c : Dev nD) :
    V m c main_v4 = extui 32 (shapeCast S2048x2048 (m ((c.tc : Thread nD τ).loc main_arg3)) shapeCasts_S1x1x2048x2048_S2048x2048) natLt_1_32 := by
  show StableHlo.after hostOps0 (fun b => m (c, b)) (Proc.devRef .tc main_v4) = _
  after_results
  rfl

/-! ## The run -/

/-- Every weakly fair execution of the kernel's program terminates with the two results at the context and the
    weights of the arrays the region was launched on, recast to four axes, and the arguments unchanged. -/
theorem run : θ_run defs (onTc (τ := τ) (main (F := Ideal))) ⟨m, fun _ => 0, ρ⟩ fun r => ∀ c : Dev nD,
      r.2.mem ((c.tc : Thread nD τ).loc main_v6) = shapeCast S2x16x2048x128 (contextOf m c) shapeCasts_S32x2048x128_S2x16x2048x128
      ∧ r.2.mem ((c.tc : Thread nD τ).loc main_v7) = shapeCast S2x16x2048x2048 (weightsOf m c) shapeCasts_S32x2048x2048_S2x16x2048x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨
      ((h c).2 main_v6 (Pipeline.mem_restRefs_of main_v6 (by decide) (by decide))).trans (tail_context m c),
      ((h c).2 main_v7 (Pipeline.mem_restRefs_of main_v7 (by decide) (by decide))).trans (tail_weights m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Attn.Final

end
-- ==== Proof.Bridge.lean ====
/-
  The kernel's arrays, recast back to four axes, are the specification's attention weights and context.

  The kernel works on the arguments recast to [32, 2048, 128] (pair index 16·b + h) and on the mask recast to
  [2048, 2048] and widened to words; its results are recast back to [2, 16, 2048, ·]. Row-major recasts only rename
  indices. The mask test "word ≠ 0" of a widened bit is the bit. The one arithmetic step: the kernel scales every
  query entry before the contraction and the specification scales the contraction, which agree for real entries.
-/
import proofs.«118692_j82523501625734_2_alg».proof.Proof.KernelArrays
import proofs.«118692_j82523501625734_2_alg».proof.Proof.Spec

noncomputable section

namespace Attn.Bridge

open Cert.KernelIdeal Cert.KernelIdeal.Gen Idealize.ShloMosaic Idealize.ShloMosaic.ValueIdx Attn.Spec Attn.Arrays

/-- The pair index of batch b and head h. -/
abbrev pairIx (b : Fin 2) (h : Fin 16) : Fin 32 := ⟨16 * b.val + h.val, by have := b.isLt; have := h.isLt; omega⟩

/-- A [2, 16, 2048, 128] array recast to [32, 2048, 128], at (16·b + h, q, d), is the array at (b, h, q, d). -/
theorem merged_at {α : Type} (x : S2x16x2048x128.Idx → α) (hc : S2x16x2048x128.ShapeCasts S32x2048x128)
    (b : Fin 2) (h : Fin 16) (q : Fin 2048) (d : Fin 128) :
    shapeCast S32x2048x128 x hc (ix3 (pairIx b h) q d) = x (ix4 b h q d) :=
  shapeCast_apply x hc _ _ (by
    rw [Shape.rowMajor_val_three, Shape.rowMajor_val_four]
    show ((b.val * 16 + h.val) * 2048 + q.val) * 128 + d.val = ((16 * b.val + h.val) * 2048 + q.val) * 128 + d.val
    omega)

/-- A [32, 2048, n] array recast to [2, 16, 2048, n], at (b, h, q, c), is the array at (16·b + h, q, c). -/
theorem split_at {α : Type} {n : ℕ} (x : (⟨3, ![32, 2048, n]⟩ : Shape).Idx → α)
    (hc : (⟨3, ![32, 2048, n]⟩ : Shape).ShapeCasts ⟨4, ![2, 16, 2048, n]⟩)
    (b : Fin 2) (h : Fin 16) (q : Fin 2048) (c : Fin n) :
    shapeCast ⟨4, ![2, 16, 2048, n]⟩ x hc (ix4 b h q c) = x (ix3 (pairIx b h) q c) :=
  shapeCast_apply x hc _ _ (by
    rw [Shape.rowMajor_val_three, Shape.rowMajor_val_four]
    show ((16 * b.val + h.val) * 2048 + q.val) * n + c.val = ((b.val * 16 + h.val) * 2048 + q.val) * n + c.val
    rw [Nat.mul_comm 16 b.val])

/-- The test "word ≠ 0" of a bit widened to a word is the bit. -/
theorem widened_ne_zero : ∀ b : BitVec 1, IntOp.cmpi .ne (b.setWidth 32) 0#32 = b := by decide

/-- The kernel's mask test at (q, c) is the mask bit at (0, 0, q, c). -/
theorem maskbit_at (x3 : S1x1x2048x2048.Idx → BitVec 1) (hc : S1x1x2048x2048.ShapeCasts S2048x2048) (q c : Fin 2048) :
    IntOp.cmpi .ne (extui 32 (shapeCast S2048x2048 x3 hc) natLt_1_32 (ix2 q c)) 0#32 = x3 (ix4 (0 : Fin 1) (0 : Fin 1) q c) := by
  rw [extui_apply, widened_ne_zero]
  exact shapeCast_apply x3 hc _ _ (by
    rw [Shape.rowMajor_val_two, Shape.rowMajor_val_four]
    show ((0 * 1 + 0) * 2048 + q.val) * 2048 + c.val = q.val * 2048 + c.val
    omega)

variable (x0 x1 x2 : S2x16x2048x128.Idx → EReal) (x3 : S1x1x2048x2048.Idx → BitVec 1)

/-- The kernel's score row of (16·b + h, q) is the specification's score row of (b, h, q), for real queries and keys. -/
theorem row_bridge (h0 : ∀ i, ∃ r : ℝ, x0 i = r) (h1 : ∀ i, ∃ r : ℝ, x1 i = r)
    (b : Fin 2) (h : Fin 16) (q : Fin 2048) :
    row3 (extui 32 (shapeCast S2048x2048 x3 shapeCasts_S1x1x2048x2048_S2048x2048) natLt_1_32)
        (shapeCast S32x2048x128 x0 shapeCasts_S2x16x2048x128_S32x2048x128)
        (shapeCast S32x2048x128 x1 shapeCasts_S2x16x2048x128_S32x2048x128) (pairIx b h) q
      = scores x0 x1 x3 b h q := by
  funext c
  unfold row3 scores
  rw [maskbit_at]
  refine congrArg (Scalar.select _ fillC) ?_
  simp only [merged_at]
  exact scale_contraction (fun d => x0 (ix4 b h q d)) (fun d => x1 (ix4 b h c d)) scaleC
    (fun d => h0 _) (fun d => h1 _) scaleC_real

/-- The weights array recast to four axes is the specification's attention weights. -/
theorem weights_bridge (h0 : ∀ i, ∃ r : ℝ, x0 i = r) (h1 : ∀ i, ∃ r : ℝ, x1 i = r) :
    shapeCast S2x16x2048x2048
        (weights3 (extui 32 (shapeCast S2048x2048 x3 shapeCasts_S1x1x2048x2048_S2048x2048) natLt_1_32)
          (shapeCast S32x2048x128 x0 shapeCasts_S2x16x2048x128_S32x2048x128)
          (shapeCast S32x2048x128 x1 shapeCasts_S2x16x2048x128_S32x2048x128))
        shapeCasts_S32x2048x2048_S2x16x2048x2048
      = attn x0 x1 x3 := by
  funext i
  obtain ⟨b, h, q, c, rfl⟩ : ∃ (b : Fin 2) (h : Fin 16) (q c : Fin 2048), i = ix4 b h q c := ⟨i 0, i 1, i 2, i 3, eq_ix4 i⟩
  rw [split_at]
  unfold weights3 attn
  show rowWeight (row3 _ _ _ (pairIx b h) q) c = rowWeight (scores x0 x1 x3 b h q) c
  rw [row_bridge x0 x1 x3 h0 h1]

/-- The context array recast to four axes is the specification's context. -/
theorem context_bridge (h0 : ∀ i, ∃ r : ℝ, x0 i = r) (h1 : ∀ i, ∃ r : ℝ, x1 i = r) :
    shapeCast S2x16x2048x128
        (context3 (extui 32 (shapeCast S2048x2048 x3 shapeCasts_S1x1x2048x2048_S2048x2048) natLt_1_32)
          (shapeCast S32x2048x128 x0 shapeCasts_S2x16x2048x128_S32x2048x128)
          (shapeCast S32x2048x128 x1 shapeCasts_S2x16x2048x128_S32x2048x128)
          (shapeCast S32x2048x128 x2 shapeCasts_S2x16x2048x128_S32x2048x128))
        shapeCasts_S32x2048x128_S2x16x2048x128
      = context x0 x1 x2 x3 := by
  funext i
  obtain ⟨b, h, q, d, rfl⟩ : ∃ (b : Fin 2) (h : Fin 16) (q : Fin 2048) (d : Fin 128), i = ix4 b h q d := ⟨i 0, i 1, i 2, i 3, eq_ix4 i⟩
  rw [split_at]
  unfold context3 context
  show ∑ c : Fin 2048, rowWeight (row3 _ _ _ (pairIx b h) q) c * _ = ∑ c : Fin 2048, rowWeight (scores x0 x1 x3 b h q) c * _
  rw [row_bridge x0 x1 x3 h0 h1]
  exact Finset.sum_congr rfl fun c _ => congrArg (rowWeight (scores x0 x1 x3 b h q) c * ·) (merged_at x2 _ b h c d)

end Attn.Bridge

end
-- ==== Proof.Finite.lean ====
/-
  Under the precondition every entry of the three float arguments is a real number.

  The precondition is the conjunction of three "all entries satisfy |x| < +∞"; an all-reduce by "and" that is 1
  had a 1 at every entry; and an extended real whose absolute value is below +∞ is neither infinity.
-/
import proofs.«118692_j82523501625734_2_alg».proof.Pre_finite_inputs
import proofs.«118692_j82523501625734_2_alg».proof.Proof.Gen.Pre_finite_inputs
import proofs.«118692_j82523501625734_2_alg».proof.Proof.LibColumns
import Idealize.ShloMosaic.Lib.ReduceAll
import Idealize.ShloMosaic.Lib.ValueIdx
import Idealize.ShloMosaic.PureOps.Ideal
import Idealize.ShloMosaic.PureOps.Ideal.Laws

noncomputable section

namespace Attn.Finite

open Idealize.ShloMosaic Idealize.ShloMosaic.ValueIdx Cert.Pre_finite_inputs

instance : Subsingleton S_.Idx := ⟨fun a b => funext fun d => d.elim0⟩

/-- An extended real whose absolute value compares below the word of +∞ is a real number. -/
theorem real_of_abs_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One "all entries finite" test read back at an entry. -/
theorem real_of_all (x : FVec Ideal S2x16x2048x128 .f32)
    (h : Host.reduce IntOp.andi (cmpf .olt (Host.absf x)
        (broadcastInDim S2x16x2048x128 ![] Facts.bcast_S_S2x16x2048x128 (constant (F := Ideal) S_ .f32 0x7F800000#32)))
      (constantI S_ 1 1#1) Facts.reducesTo_S2x16x2048x128_S_d0_1_2_3 Facts.h_S_ ix0 = 1#1)
    (i : S2x16x2048x128.Idx) : ∃ r : ℝ, x i = r := by
  have e := Host.reduce_andi_all _ _ _ _ _ h i
  rw [cmpf_apply, Cert.Sage.Layout.broadcastInDim_scalar_apply] at e
  exact real_of_abs_lt (x i) e

/-- Under the precondition the queries, keys and values are real-valued. -/
theorem real_of_pre (x0 x1 x2 : FVec Ideal S2x16x2048x128 .f32) (x3 : IVec S1x1x2048x2048 1)
    (h : fn (F := Ideal) x0 x1 x2 x3 = fun _ => 1#1) :
    (∀ i, ∃ r : ℝ, x0 i = r) ∧ (∀ i, ∃ r : ℝ, x1 i = r) ∧ (∀ i, ∃ r : ℝ, x2 i = r) := by
  have h0 := congrFun h ix0
  dsimp only [fn] at h0
  obtain ⟨h01, h2⟩ := IntOp.andi_eq_one.1 h0
  obtain ⟨h0', h1'⟩ := IntOp.andi_eq_one.1 h01
  exact ⟨real_of_all x0 h0', real_of_all x1 h1', real_of_all x2 h2⟩

end Attn.Finite

end
-- ==== Proof.lean ====
/-
  Masked scaled-dot-product attention: a fused kernel against its jnp reference, over the extended reals.

  The kernel works per (batch·head) pair and query tile of 512 rows: it scales the query tile by the f32 nearest
  1/√128, contracts it with the pair's keys (kept in a scratch array written at the pair's first tile), replaces
  the masked scores by −1e9, takes the row softmax (maximum from −∞, shifted exponentials, their sum, the quotient),
  stores the weights and contracts them with the pair's values (a second scratch array). The reference contracts
  queries with keys over all pairs at once, scales the scores, masks them, takes the same softmax and contracts
  with the values.

  Both are the specification's weights and context (Proof/Spec.lean): the reference by reading its operations
  one at a time (Proof/RefValue.lean); the kernel by reading what each grid point leaves in its output blocks
  (Proof/KernelPieces.lean, Proof/KernelRows.lean), following the carried scratch arrays through the grid
  (Proof/KernelRun.lean), piecing the blocks into the arrays (Proof/KernelFinal.lean), and renaming indices
  through the recasts (Proof/Bridge.lean). The one place the two sides differ arithmetically is where the scale
  is applied — to each query entry, or to the contraction — and these agree because under the precondition the
  queries and keys are real numbers (Proof/Finite.lean). The ideal pass rewrote nothing, so the kernel's
  idealization is its own text read over the extended reals.
-/
import proofs.«118692_j82523501625734_2_alg».proof.Defs
import proofs.«118692_j82523501625734_2_alg».proof.Proof.Gen.Kernel
import proofs.«118692_j82523501625734_2_alg».proof.Proof.Gen.Kernel.Skeleton
import proofs.«118692_j82523501625734_2_alg».proof.Proof.Gen.Kernel.Launch
import proofs.«118692_j82523501625734_2_alg».proof.Proof.Gen.Kernel.Points
import proofs.«118692_j82523501625734_2_alg».proof.Proof.Gen.Kernel.Frame
import proofs.«118692_j82523501625734_2_alg».proof.Proof.Gen.KernelIdeal
import proofs.«118692_j82523501625734_2_alg».proof.Proof.Gen.KernelIdeal.Skeleton
import proofs.«118692_j82523501625734_2_alg».proof.Proof.Gen.KernelIdeal.Launch
import proofs.«118692_j82523501625734_2_alg».proof.Proof.Gen.KernelIdeal.Points
import proofs.«118692_j82523501625734_2_alg».proof.Proof.Gen.KernelIdeal.Frame
import proofs.«118692_j82523501625734_2_alg».proof.Proof.Gen.ReferenceIdeal
import proofs.«118692_j82523501625734_2_alg».proof.Proof.Gen.ReferenceIdeal.Run
import proofs.«118692_j82523501625734_2_alg».proof.Proof.Gen.ReferenceIdeal.Read
import proofs.«118692_j82523501625734_2_alg».proof.Proof.Gen.Pre_finite_inputs
import proofs.«118692_j82523501625734_2_alg».proof.Proof.RefValue
import proofs.«118692_j82523501625734_2_alg».proof.Proof.KernelFinal
import proofs.«118692_j82523501625734_2_alg».proof.Proof.Bridge
import proofs.«118692_j82523501625734_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and leaves its arguments unchanged: its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the specification's context and attention weights of the (agreeing) arguments. -/
theorem algebraic : Cert.algebraic_KernelIdeal_ReferenceIdeal := by
  intro m ρ m' ρ' hpre hagree
  refine ⟨fun c => Attn.Spec.context (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      fun c => Attn.Spec.attn (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3)), ?_, ?_⟩
  · refine (θ_run Cert.KernelIdeal.defs _ _).mono (fun r h c => ?_) (Attn.Final.run m ρ)
    obtain ⟨h6, h7, ha0, ha1, ha2, ha3⟩ := h c
    obtain ⟨f0, f1, -⟩ := Attn.Finite.real_of_pre _ _ _ _ (hpre c)
    refine ⟨h6.trans ?_, h7.trans ?_, ha0, ha1, ha2, ha3⟩
    · dsimp only [Attn.Final.contextOf]
      rw [Attn.Final.mask_in, Attn.Final.queries_in, Attn.Final.keys_in, Attn.Final.values_in]
      exact Attn.Bridge.context_bridge _ _ _ _ f0 f1
    · dsimp only [Attn.Final.weightsOf]
      rw [Attn.Final.mask_in, Attn.Final.queries_in, Attn.Final.keys_in]
      exact Attn.Bridge.weights_bridge _ _ _ f0 f1
  · refine (θ_run Cert.ReferenceIdeal.defs _ _).mono (fun r h c => ?_) (Cert.ReferenceIdeal.Value.run (F := Ideal) m' ρ')
    obtain ⟨h15, h14, ha0, ha1, ha2, ha3⟩ := h c
    obtain ⟨g0, g1, g2, g3⟩ := hagree c
    refine ⟨h15.trans ((Cert.ReferenceIdeal.Read.val_main_v15_eq (F := Ideal) _ _ _ _).trans ?_),
      h14.trans ((Cert.ReferenceIdeal.Read.val_main_v14_eq (F := Ideal) _ _ _).trans ?_), ha0, ha1, ha2, ha3⟩
    · rw [Attn.Ref.context_eq, g0, g1, g2, g3]
    · rw [Attn.Ref.weights_eq, g0, g1, g3]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
